-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048x16 : Shape := ⟨3, ![4096, 2048, 16]⟩
abbrev S1000x2048 : Shape := ⟨2, ![1000, 2048]⟩
abbrev S1000 : Shape := ⟨1, ![1000]⟩
abbrev S_ : Shape := ⟨0, ![]⟩

class Facts : Prop where
  bcast_S_S4096x2048x16 : S_.BroadcastsInDim S4096x2048x16 (![] : Fin 0 → Fin S4096x2048x16.rank)
  reducesTo_S4096x2048x16_S_d0_1_2 : S4096x2048x16.ReducesTo [0, 1, 2] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S4096x2048x16 .f32) (main_arg1 : FVec F S1000x2048 .f32) (main_arg2 : FVec F S1000 .f32) : IVec S_ 1 :=
  let main_v0 : FVec F S4096x2048x16 .f32 := Host.absf main_arg0
  let main_cst : FVec F S_ .f32 := constant S_ .f32 0x7F800000#32
  let main_v1 : FVec F S4096x2048x16 .f32 := broadcastInDim S4096x2048x16 ![] bcast_S_S4096x2048x16 main_cst
  let main_v2 : IVec S4096x2048x16 1 := cmpf .olt main_v0 main_v1
  let main_c : IVec S_ 1 := constantI S_ 1 1#1
  let main_v3 : IVec S_ 1 := (fun x v => Host.reduce IntOp.andi x v reducesTo_S4096x2048x16_S_d0_1_2 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S4096x2048x16 : Shape := ⟨3, ![4096, 2048, 16]⟩
abbrev S1000x2048 : Shape := ⟨2, ![1000, 2048]⟩
abbrev S1000 : Shape := ⟨1, ![1000]⟩
abbrev S2048x1000 : Shape := ⟨2, ![2048, 1000]⟩
abbrev S1x1000 : Shape := ⟨2, ![1, 1000]⟩
abbrev S4096x1000 : Shape := ⟨2, ![4096, 1000]⟩
abbrev S16x2048x16 : Shape := ⟨3, ![16, 2048, 16]⟩
abbrev S16x1000 : Shape := ⟨2, ![16, 1000]⟩
abbrev S16x2048 : Shape := ⟨2, ![16, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048x16, .f32⟩
  | .hbm, ⟨1, _⟩ => ⟨S1000x2048, .f32⟩
  | .hbm, ⟨2, _⟩ => ⟨S1000, .f32⟩
  | .hbm, ⟨3, _⟩ => ⟨S2048x1000, .f32⟩
  | .hbm, ⟨4, _⟩ => ⟨S2048x1000, .bf16⟩
  | .hbm, ⟨5, _⟩ => ⟨S1x1000, .f32⟩
  | .hbm, ⟨6, _⟩ => ⟨S4096x1000, .f32⟩
  | .local _ .vmem, ⟨0, _⟩ => ⟨S16x2048x16, .f32⟩
  | .local _ .vmem, ⟨1, _⟩ => ⟨S16x2048x16, .f32⟩
  | .local _ .vmem, ⟨2, _⟩ => ⟨S2048x1000, .bf16⟩
  | .local _ .vmem, ⟨3, _⟩ => ⟨S1x1000, .f32⟩
  | .local _ .vmem, ⟨4, _⟩ => ⟨S16x1000, .f32⟩
  | .local _ .vmem, ⟨5, _⟩ => ⟨S16x1000, .f32⟩
  | _, _ => ⟨S4096x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1000x2048_S2048x1000_1_0 : S1000x2048.Transposes [1, 0] S2048x1000
  bitsLt_bf16_f32 : FTy.bits .bf16 < FTy.bits .f32
  shapeCasts_S1000_S1x1000 : S1000.ShapeCasts S1x1000
  inb_S16x2048x16_S16x2048x16_0_0_0 : ∀ a, (![0, 0, 0] : Fin 3 → Nat) a + S16x2048x16.size a ≤ S16x2048x16.size a
  h_S16x2048x16 : 0 < S16x2048x16.numel
  reduces_S16x2048x16_S16x2048 : S16x2048x16.Reduces [2] S16x2048
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S16x1000 : S1x1000.Broadcasts S16x1000
  inb_S16x1000_S16x1000_0_0 : ∀ a, (![0, 0] : Fin 2 → Nat) a + S16x1000.size a ≤ S16x1000.size a
  h_S16x1000 : 0 < S16x1000.numel
  dot_S16x2048_S2048x1000_S16x1000_1_0_0_1_n_n_wf : DotDims.WF S16x2048 S2048x1000 S16x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048x16.size a ≤ S4096x2048x16.size a
  hwx0_0 : ∀ i : grid0.Coords, EltTy.bits .f32 = 32 ∨ (Rect.block (s := S4096x2048x16) S16x2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1000.size a ≤ S2048x1000.size a
  hwx0_1 : ∀ i : grid0.Coords, EltTy.bits .bf16 = 32 ∨ (Rect.block (s := S2048x1000) S2048x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1000.size a ≤ S4096x1000.size a
  hwx0_3 : ∀ i : grid0.Coords, EltTy.bits .f32 = 32 ∨ (Rect.block (s := S4096x1000) S16x1000.size (cc0_transform_3 i) (hinb0_3 i)).WholeWords (EltTy.packing .f32)

variable [Facts₀]

def dot_S16x2048_S2048x1000_S16x1000_1_0_0_1_n_n : DotDims S16x2048 S2048x1000 S16x1000 where
  lhsContracting := [1]
  rhsContracting := [0]
  lhsNonContracting := [0]
  rhsNonContracting := [1]
  lhsBatch := []
  rhsBatch := []
  wf := dot_S16x2048_S2048x1000_S16x1000_1_0_0_1_n_n_wf

abbrev win0_0 : Pipeline.Window sig grid0 :=
  Pipeline.Window.ofSpec (Memref.whole main_arg0) S16x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048x16 : Shape := ⟨3, ![4096, 2048, 16]⟩
abbrev S1000x2048 : Shape := ⟨2, ![1000, 2048]⟩
abbrev S1000 : Shape := ⟨1, ![1000]⟩
abbrev S_ : Shape := ⟨0, ![]⟩
abbrev S4096x2048 : Shape := ⟨2, ![4096, 2048]⟩
abbrev S4096x1000 : Shape := ⟨2, ![4096, 1000]⟩
abbrev S1x1000 : Shape := ⟨2, ![1, 1000]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048x16, .f32⟩
  | .hbm, ⟨1, _⟩ => ⟨S1000x2048, .f32⟩
  | .hbm, ⟨2, _⟩ => ⟨S1000, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x1000, .f32⟩
  | .hbm, ⟨9, _⟩ => ⟨S1x1000, .f32⟩
  | .hbm, ⟨10, _⟩ => ⟨S4096x1000, .f32⟩
  | .hbm, ⟨11, _⟩ => ⟨S4096x1000, .f32⟩
  | _, _ => ⟨S4096x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S4096x2048x16_S4096x2048_d2 : S4096x2048x16.ReducesTo [2] S4096x2048
  h_S_ : 0 < S_.numel
  bcast_S_S4096x2048 : S_.BroadcastsInDim S4096x2048 (![] : Fin 0 → Fin S4096x2048.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x2048_S1000x2048_S4096x1000_1_1_0_0_n_n_wf : DotDims.WF S4096x2048 S1000x2048 S4096x1000 [1] [1] [0] [0] [] []

variable [Facts₀]

def dot_S4096x2048_S1000x2048_S4096x1000_1_1_0_0_n_n : DotDims S4096x2048 S1000x2048 S4096x1000 where
  lhsContracting := [1]
  rhsContracting := [1]
  lhsNonContracting := [0]
  rhsNonContracting := [0]
  lhsBatch := []
  rhsBatch := []
  wf := dot_S4096x2048_S1000x2048_S4096x1000_1_1_0_0_n_n_wf

class Facts : Prop extends Facts₀ where

variable [Facts]
-- ==== Proof.Spec.lean ====
/-
  The function both programs compute, on the extended reals.

  The input x has 4096 rows b, 2048 features k and 16 steps t.  A row's pooled feature is the sum of its sixteen
  steps divided by sixteen (the f32 word 0x41800000, which neither side ever evaluates: it is the same divisor on both).
  The result at (b, q) is the sum over k of the pooled feature (b, k) times the weight W (q, k), plus the bias at q.

  The kernel works on blocks of sixteen rows, with the weights already transposed to (k, q) and the bias as one row
  (0, q); the reference works on the whole arrays.  Both are instances of the two definitions below, so that no
  algebraic law is needed to join them: only the indices have to be matched.
-/
import Idealize.ShloMosaic.PureOps.Ideal
import Idealize.ShloMosaic.Lib.ValueIdx

noncomputable section

namespace Cert.MeanLinear

open Idealize.ShloMosaic Idealize.ShloMosaic.ValueIdx

/-- The pooled feature (b, k) of an array of B rows: the sixteen steps added, then divided by sixteen. -/
def rowMean {B : Nat} (x : (⟨3, ![B, 2048, 16]⟩ : Shape).Idx → EReal) (b : Fin B) (k : Fin 2048) : EReal :=
  Ideal.div (∑ t : Fin 16, x (ix3 b k t)) (Ideal.ofBits .f32 0x41800000#32)

/-- The result at (b, q) from weights laid out (k, q) and a bias row (0, q): what one block of the kernel computes. -/
def entryT {B : Nat} (x : (⟨3, ![B, 2048, 16]⟩ : Shape).Idx → EReal) (wt : (⟨2, ![2048, 1000]⟩ : Shape).Idx → EReal)
    (brow : (⟨2, ![1, 1000]⟩ : Shape).Idx → EReal) (b : Fin B) (q : Fin 1000) : EReal :=
  (∑ k : Fin 2048, rowMean x b k * wt (ix2 k q)) + brow (ix2 (0 : Fin 1) q)

/-- The result at (b, q) from the weights (q, k) and the bias q as the arguments give them. -/
def entry (x : (⟨3, ![4096, 2048, 16]⟩ : Shape).Idx → EReal) (w : (⟨2, ![1000, 2048]⟩ : Shape).Idx → EReal)
    (bias : (⟨1, ![1000]⟩ : Shape).Idx → EReal) (b : Fin 4096) (q : Fin 1000) : EReal :=
  (∑ k : Fin 2048, rowMean x b k * w (ix2 q k)) + bias (ix1 q)

/-- The whole result array. -/
def logits (x : (⟨3, ![4096, 2048, 16]⟩ : Shape).Idx → EReal) (w : (⟨2, ![1000, 2048]⟩ : Shape).Idx → EReal)
    (bias : (⟨1, ![1000]⟩ : Shape).Idx → EReal) : (⟨2, ![4096, 1000]⟩ : Shape).Idx → EReal :=
  fun i => entry x w bias (i 0) (i 1)

theorem logits_ix2 (x : (⟨3, ![4096, 2048, 16]⟩ : Shape).Idx → EReal) (w : (⟨2, ![1000, 2048]⟩ : Shape).Idx → EReal)
    (bias : (⟨1, ![1000]⟩ : Shape).Idx → EReal) (b : Fin 4096) (q : Fin 1000) :
    logits x w bias (ix2 b q) = entry x w bias b q := rfl

/-- A pooled feature depends only on its own row: two arrays that agree on row b of the one and row b' of the other
    have the same pooled features there. -/
theorem rowMean_congr {B B' : Nat} (x : (⟨3, ![B, 2048, 16]⟩ : Shape).Idx → EReal)
    (x' : (⟨3, ![B', 2048, 16]⟩ : Shape).Idx → EReal) (b : Fin B) (b' : Fin B') (k : Fin 2048)
    (h : ∀ t : Fin 16, x (ix3 b k t) = x' (ix3 b' k t)) : rowMean x b k = rowMean x' b' k := by
  unfold rowMean
  exact congrArg (Ideal.div · _) (Finset.sum_congr rfl fun t _ => h t)

/-- A block's entry is the whole array's: the block's rows are rows of the array, the transposed weights and the
    bias row hold the arguments' values. -/
theorem entryT_eq_entry {B : Nat} (xb : (⟨3, ![B, 2048, 16]⟩ : Shape).Idx → EReal)
    (wt : (⟨2, ![2048, 1000]⟩ : Shape).Idx → EReal) (brow : (⟨2, ![1, 1000]⟩ : Shape).Idx → EReal)
    (x : (⟨3, ![4096, 2048, 16]⟩ : Shape).Idx → EReal) (w : (⟨2, ![1000, 2048]⟩ : Shape).Idx → EReal)
    (bias : (⟨1, ![1000]⟩ : Shape).Idx → EReal) (p : Fin B) (b : Fin 4096) (q : Fin 1000)
    (hx : ∀ (k : Fin 2048) (t : Fin 16), xb (ix3 p k t) = x (ix3 b k t))
    (hw : ∀ k : Fin 2048, wt (ix2 k q) = w (ix2 q k)) (hb : brow (ix2 (0 : Fin 1) q) = bias (ix1 q)) :
    entryT xb wt brow p q = entry x w bias b q := by
  unfold entryT entry
  rw [hb]
  exact congrArg (· + _) (Finset.sum_congr rfl fun k _ => by rw [rowMean_congr xb x p b k (hx k), hw k])

end Cert.MeanLinear

end
-- ==== Proof.BodyValue.lean ====
/-
  What one run of the kernel body stores, read at an entry.

  The body loads a block of sixteen rows of x, the transposed weights and the bias row, adds the sixteen steps of every
  (row, feature) pair, divides by sixteen, narrows to bf16 (the identity on the extended reals), multiplies the 16 × 2048
  pooled block into the 2048 × 1000 weights starting from a zero accumulator, and adds the bias row broadcast over the
  sixteen rows.  At entry (p, q) that is the specification's block entry: the lane sum is a sum over the step coordinate,
  the matrix product a sum over the feature coordinate, the two shape casts are to the same shape.
-/
import proofs.«102949_j32323923870270_2_alg».proof.Proof.Gen.KernelIdeal.Skeleton
import proofs.«102949_j32323923870270_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx Cert.MeanLinear

/-- The lane sum over the step axis, at (p, k): the sixteen steps of that pair added. -/
theorem steps_sum (v0 : FVec Ideal S16x2048x16 .f32) (h : S16x2048x16.Reduces [2] S16x2048) (hφ : FKind.Formats .f32)
    (hacc : (0x00000000#32 : BitVec 32) = FKind.add.neutral .f32 hφ) (p : Fin 16) (k : Fin 2048) :
    multiReduction .add [2] S16x2048 v0 0x00000000#32 h hφ hacc (ix2 p k) = ∑ t : Fin 16, v0 (ix3 p k t) := by
  refine (Ideal.multiReduction_add_single v0 0x00000000#32 h hφ hacc (ix2 p k)).trans ?_
  refine Finset.sum_congr rfl fun t _ => congrArg v0 ?_
  funext a
  apply Fin.ext
  match a with
  | ⟨0, _⟩ => rfl
  | ⟨1, _⟩ => rfl
  | ⟨2, _⟩ => rfl

/-! The operand indices of the product at a result entry and a contraction position: the left operand is read at
    (row of the entry, position), the right at (position, column of the entry). -/

theorem lhs_row (i : S16x1000.Idx) (κ : dot_S16x2048_S2048x1000_S16x1000_1_0_0_1_n_n.contr.Idx) :
    (dot_S16x2048_S2048x1000_S16x1000_1_0_0_1_n_n.lhsIdx i κ 0).val = (i 0).val := by
  unfold DotDims.lhsIdx
  rw [dif_neg (show ¬(0 : Fin S16x2048.rank) ∈ dot_S16x2048_S2048x1000_S16x1000_1_0_0_1_n_n.lhsBatch by decide),
    dif_pos (show (0 : Fin S16x2048.rank) ∈ dot_S16x2048_S2048x1000_S16x1000_1_0_0_1_n_n.lhsNonContracting by decide)]
  rfl

theorem lhs_col (i : S16x1000.Idx) (κ : dot_S16x2048_S2048x1000_S16x1000_1_0_0_1_n_n.contr.Idx) :
    (dot_S16x2048_S2048x1000_S16x1000_1_0_0_1_n_n.lhsIdx i κ 1).val = (κ ⟨0, by decide⟩).val :=
  dot_S16x2048_S2048x1000_S16x1000_1_0_0_1_n_n.lhsIdx_val_of_single rfl i κ

theorem rhs_row (i : S16x1000.Idx) (κ : dot_S16x2048_S2048x1000_S16x1000_1_0_0_1_n_n.contr.Idx) :
    (dot_S16x2048_S2048x1000_S16x1000_1_0_0_1_n_n.rhsIdx i κ 0).val = (κ ⟨0, by decide⟩).val :=
  dot_S16x2048_S2048x1000_S16x1000_1_0_0_1_n_n.rhsIdx_val_of_single rfl i κ

theorem rhs_col (i : S16x1000.Idx) (κ : dot_S16x2048_S2048x1000_S16x1000_1_0_0_1_n_n.contr.Idx) :
    (dot_S16x2048_S2048x1000_S16x1000_1_0_0_1_n_n.rhsIdx i κ 1).val = (i 1).val := by
  unfold DotDims.rhsIdx
  rw [dif_neg (show ¬(1 : Fin S2048x1000.rank) ∈ dot_S16x2048_S2048x1000_S16x1000_1_0_0_1_n_n.rhsBatch by decide),
    dif_pos (show (1 : Fin S2048x1000.rank) ∈ dot_S16x2048_S2048x1000_S16x1000_1_0_0_1_n_n.rhsNonContracting by decide)]
  rfl

theorem lhs_at (p : Fin 16) (q : Fin 1000) (k : Fin 2048) :
    dot_S16x2048_S2048x1000_S16x1000_1_0_0_1_n_n.lhsIdx (ix2 p q) ((contrEquiv1 dot_S16x2048_S2048x1000_S16x1000_1_0_0_1_n_n 2048 rfl rfl).symm k) = ix2 p k :=
  funext fun a => Fin.ext (by
    match a with
    | ⟨0, _⟩ => exact lhs_row _ _
    | ⟨1, _⟩ => exact (lhs_col _ _).trans (contrEquiv1_symm_val dot_S16x2048_S2048x1000_S16x1000_1_0_0_1_n_n 2048 rfl rfl k))

theorem rhs_at (p : Fin 16) (q : Fin 1000) (k : Fin 2048) :
    dot_S16x2048_S2048x1000_S16x1000_1_0_0_1_n_n.rhsIdx (ix2 p q) ((contrEquiv1 dot_S16x2048_S2048x1000_S16x1000_1_0_0_1_n_n 2048 rfl rfl).symm k) = ix2 k q :=
  funext fun a => Fin.ext (by
    match a with
    | ⟨0, _⟩ => exact (rhs_row _ _).trans (contrEquiv1_symm_val dot_S16x2048_S2048x1000_S16x1000_1_0_0_1_n_n 2048 rfl rfl k)
    | ⟨1, _⟩ => exact rhs_col _ _)

/-- The matrix product into the zero accumulator, at (p, q): the sum over the feature position of left (p, k) times
    right (k, q). -/
theorem product_at (l : FVec Ideal S16x2048 .bf16) (r : FVec Ideal S2048x1000 .bf16) (p : Fin 16) (q : Fin 1000) :
    matmul dot_S16x2048_S2048x1000_S16x1000_1_0_0_1_n_n none l r (constant S16x1000 .f32 0x00000000#32) (ix2 p q)
      = ∑ k : Fin 2048, l (ix2 p k) * r (ix2 k q) := by
  refine (Ideal.matmul_constant_zero_apply dot_S16x2048_S2048x1000_S16x1000_1_0_0_1_n_n none l r (ix2 p q)).trans ?_
  rw [← Equiv.sum_comp (contrEquiv1 dot_S16x2048_S2048x1000_S16x1000_1_0_0_1_n_n 2048 rfl rfl).symm]
  exact Finset.sum_congr rfl fun k _ => by rw [lhs_at, rhs_at]

/-- The stored value at (p, q) is the specification's block entry of the three loaded blocks. -/
theorem stored_at (x0 : Vec Ideal S16x2048x16 .f32) (x1 : Vec Ideal S2048x1000 .bf16) (x2 : Vec Ideal S1x1000 .f32)
    (p : Fin 16) (q : Fin 1000) :
    k0_pay1 (F := Ideal) x0 x1 x2 (ix2 p q) = entryT x0 x1 x2 p q := by
  unfold k0_pay1 entryT
  dsimp only
  refine (addf_apply _ _ _).trans (congrArg₂ (· + ·) ?_ ?_)
  · refine (product_at _ _ p q).trans (Finset.sum_congr rfl fun k _ => congrArg₂ (· * ·) ?_ ?_)
    · unfold rowMean
      exact congrArg (Ideal.div · _) (steps_sum x0 _ _ _ p k)
    · exact congrFun (shapeCast_self x1 _) (ix2 k q)
  · refine (broadcastTo_1b_ab_apply _ _ p q).trans ?_
    exact congrFun (shapeCast_self x2 _) (ix2 (0 : Fin 1) q)

end Cert.KernelIdeal.Body

end
-- ==== Proof.Staged.lean ====
/-
  What the region finds in the two arrays the host prepares before it.

  Before the kernel is launched the host transposes the weights W (q, k) to (k, q) and narrows them to bf16 (the identity
  on the extended reals), and reshapes the bias of 1000 entries to one row of 1000.  So the staged weights at (k, q) are
  the argument's W (q, k), and the staged bias row at (0, q) is the argument's bias q.
-/
import proofs.«102949_j32323923870270_2_alg».proof.Proof.Gen.KernelIdeal.Value
import proofs.«102949_j32323923870270_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Staged

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The staged weights are the argument's, transposed and narrowed. -/
theorem weights_term (c : Dev nD) :
    @Eq (S2048x1000.Idx → EReal) (V m c main_v1)
      (truncf (F := Ideal) .bf16 (transpose S2048x1000 [1, 0] (m ((c : Thread nD τ).loc main_arg1))
          transposes_S1000x2048_S2048x1000_1_0) bitsLt_bf16_f32) := by
  dsimp only [Gen.V, Gen.hostOps0]
  after_results

/-- The staged weights at (k, q) are the argument's at (q, k). -/
theorem weights_at (c : Dev nD) (k : Fin 2048) (q : Fin 1000) :
    @Eq EReal (V m c main_v1 (ix2 k q)) (m ((c : Thread nD τ).loc main_arg1) (ix2 q k)) :=
  (congrFun (weights_term m c) (ix2 k q)).trans
    (transpose_ix2_apply (m ((c : Thread nD τ).loc main_arg1)) transposes_S1000x2048_S2048x1000_1_0 k q)

/-- The staged bias row is the argument's bias, reshaped. -/
theorem bias_term (c : Dev nD) :
    @Eq (S1x1000.Idx → EReal) (V m c main_v2)
      (shapeCast S1x1000 (m ((c : Thread nD τ).loc main_arg2)) shapeCasts_S1000_S1x1000) := by
  dsimp only [Gen.V, Gen.hostOps0]
  after_results
  rfl

/-- The staged bias row at (0, q) is the argument's bias at q. -/
theorem bias_at (c : Dev nD) (q : Fin 1000) :
    @Eq EReal (V m c main_v2 (ix2 (0 : Fin 1) q)) (m ((c : Thread nD τ).loc main_arg2) (ix1 q)) :=
  (congrFun (bias_term m c) (ix2 (0 : Fin 1) q)).trans
    (shapeCast_a_1a_apply (m ((c : Thread nD τ).loc main_arg2)) shapeCasts_S1000_S1x1000 (0 : Fin 1) q)

end Cert.KernelIdeal.Staged

end
-- ==== Proof.KernelValue.lean ====
/-
  The kernel's result array, as one function of the argument arrays.

  The grid has 256 points.  Point t stages rows 16 t … 16 t + 15 of x (all features, all steps), the whole staged
  weights and the whole staged bias row, and writes back rows 16 t … 16 t + 15 of the result (all 1000 columns).  What
  it writes at (p, q) is the body's stored value there, which is the specification's entry of row 16 t + p: the block's
  row p is that row of x, the staged weights at (k, q) are W (q, k), the staged bias row at (0, q) is the bias at q.
  The 256 blocks tile the result (row r lies in block r / 16), so the array after the run is the specification's
  result everywhere.
-/
import proofs.«102949_j32323923870270_2_alg».proof.Proof.Gen.KernelIdeal.Value
import proofs.«102949_j32323923870270_2_alg».proof.Proof.Spec
import proofs.«102949_j32323923870270_2_alg».proof.Proof.BodyValue
import proofs.«102949_j32323923870270_2_alg».proof.Proof.Staged
import Idealize.ShloMosaic.Lib.Pipeline.Value
import Idealize.ShloMosaic.Lib.ValueIdx

noncomputable section

namespace Cert.KernelIdeal.Whole

open Cert.KernelIdeal Cert.KernelIdeal.Gen
open Idealize.ShloMosaic Idealize.ShloMosaic.TcCoe Idealize.SL.Sem
open Idealize.ShloMosaic.Pipeline (Dat)
open Idealize.ShloMosaic.ValueIdx Cert.MeanLinear

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where each window's block sits at point t, decided over the 256 points: x's and the result's blocks are at row
    block t, everything else at block zero. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of x's block at point t is row 16 t + p of the argument. -/
theorem x_block_at (c : Dev nD) (t : Fin cfg0.N) (p : Fin 16) (k : Fin 2048) (s : Fin 16) (b : Fin 4096)
    (hb : b.val = 16 * t.val + p.val) :
    @Eq EReal (iblk m c 0 t (ix3 p k s)) (m ((c : Thread nD τ).loc main_arg0) (ix3 b k s)) := by
  obtain ⟨e0, e1, e2, -⟩ := block_indices t
  show V m c main_arg0 (((cfg0.win 0).blk t).view.emb (ix3 p k s)) = _
  rw [V_main_arg0]
  refine congrArg (m ((c : Thread nD τ).loc main_arg0)) ?_
  funext a
  apply Fin.ext
  match a with
  | ⟨0, _⟩ => show win0_0.index t (0 : Fin 3) * 16 + 1 * p.val = b.val; omega
  | ⟨1, _⟩ => show win0_0.index t (1 : Fin 3) * 2048 + 1 * k.val = k.val; omega
  | ⟨2, _⟩ => show win0_0.index t (2 : Fin 3) * 16 + 1 * s.val = s.val; omega

/-- The weights' block at any point is the whole staged array: at (k, q) the argument's W (q, k). -/
theorem w_block_at (c : Dev nD) (t : Fin cfg0.N) (k : Fin 2048) (q : Fin 1000) :
    @Eq EReal (iblk m c 1 t (ix2 k q)) (m ((c : Thread nD τ).loc main_arg1) (ix2 q k)) := by
  obtain ⟨-, -, -, e3, e4, -⟩ := block_indices t
  show V m c main_v1 (((cfg0.win 1).blk t).view.emb (ix2 k q)) = _
  have he : ((cfg0.win 1).blk t).view.emb (ix2 k q) = ix2 k q := by
    funext a
    apply Fin.ext
    match a with
    | ⟨0, _⟩ => show win0_1.index t (0 : Fin 2) * 2048 + 1 * k.val = k.val; omega
    | ⟨1, _⟩ => show win0_1.index t (1 : Fin 2) * 1000 + 1 * q.val = q.val; omega
  rw [he]
  exact Staged.weights_at m c k q

/-- The bias's block at any point is the whole staged row: at (0, q) the argument's bias at q. -/
theorem b_block_at (c : Dev nD) (t : Fin cfg0.N) (q : Fin 1000) :
    @Eq EReal (iblk m c 2 t (ix2 (0 : Fin 1) q)) (m ((c : Thread nD τ).loc main_arg2) (ix1 q)) := by
  obtain ⟨-, -, -, -, -, e5, e6, -⟩ := block_indices t
  show V m c main_v2 (((cfg0.win 2).blk t).view.emb (ix2 (0 : Fin 1) q)) = _
  have he : ((cfg0.win 2).blk t).view.emb (ix2 (0 : Fin 1) q) = ix2 (0 : Fin 1) q := by
    funext a
    apply Fin.ext
    match a with
    | ⟨0, _⟩ => show win0_2.index t (0 : Fin 2) * 1 + 1 * 0 = 0; omega
    | ⟨1, _⟩ => show win0_2.index t (1 : Fin 2) * 1000 + 1 * q.val = q.val; omega
  rw [he]
  exact Staged.bias_at m c q

/-- The body's stored block as a function of the block index, once every entry is known. -/
theorem stored_fun (x0 : Vec Ideal S16x2048x16 .f32) (x1 : Vec Ideal S2048x1000 .bf16) (x2 : Vec Ideal S1x1000 .f32)
    (G : S4096x1000.Idx → EReal) (e : S16x1000.Idx → S4096x1000.Idx)
    (h : ∀ (p : Fin 16) (q : Fin 1000), entryT x0 x1 x2 p q = G (e (ix2 p q))) :
    k0_pay1 (F := Ideal) x0 x1 x2 = fun j => G (e j) := by
  funext j
  obtain ⟨p, q, rfl⟩ : ∃ (p : Fin 16) (q : Fin 1000), j = ix2 p q := ⟨j 0, j 1, eq_ix2 j⟩
  rw [Body.stored_at]
  exact h p q

/-- What point t writes back is block t of the specification's result of the argument arrays. -/
theorem flushed_eq (c : Dev nD) (t : Fin cfg0.N) :
    (dats m 0 c).flushed 3 t = ((cfg0.win 3).blk t).view.read (Elt Ideal)
      (logits (m ((c : Thread nD τ).loc main_arg0)) (m ((c : Thread nD τ).loc main_arg1)) (m ((c : Thread nD τ).loc main_arg2))) := by
  rw [Value.flushed3]
  unfold out0_3
  rw [View.canon_unit_zero zeros2]
  simp only [View.ld_unit_zero (S := S16x2048x16) zeros3, View.ld_unit_zero (S := S2048x1000) zeros2,
    View.ld_unit_zero (S := S1x1000) zeros2]
  show k0_pay1 (F := Ideal) (iblk m c 0 t) (iblk m c 1 t) (iblk m c 2 t)
    = fun j => logits (m ((c : Thread nD τ).loc main_arg0)) (m ((c : Thread nD τ).loc main_arg1)) (m ((c : Thread nD τ).loc main_arg2)) (((cfg0.win 3).blk t).view.emb j)
  refine stored_fun (iblk m c 0 t) (iblk m c 1 t) (iblk m c 2 t) _ _ fun p q => ?_
  obtain ⟨-, -, -, -, -, -, -, e7, e8⟩ := block_indices t
  have ht : t.val < 256 := Nat.lt_of_lt_of_eq t.isLt N_0
  have hemb : ((cfg0.win 3).blk t).view.emb (ix2 p q) = ix2 (⟨16 * t.val + p.val, by omega⟩ : Fin 4096) q := by
    funext a
    apply Fin.ext
    match a with
    | ⟨0, _⟩ => show win0_3.index t (0 : Fin 2) * 16 + 1 * p.val = 16 * t.val + p.val; omega
    | ⟨1, _⟩ => show win0_3.index t (1 : Fin 2) * 1000 + 1 * q.val = q.val; omega
  rw [hemb, logits_ix2]
  exact entryT_eq_entry _ _ _ _ _ _ p _ q (fun k s => x_block_at m c t p k s _ rfl) (fun k => w_block_at m c t k q)
    (b_block_at m c t q)

/-- An index of the result is in point t's block iff each coordinate is in the block's range on its axis. -/
theorem mem_blk (t : Fin cfg0.N) (i : S4096x1000.Idx) :
    i ∈ ((cfg0.win 3).blk t).view.set ↔ ∀ a : Fin 2, win0_3.index t a * S16x1000.size a ≤ (i a).val
      ∧ (i a).val < win0_3.index t a * S16x1000.size a + S16x1000.size a := by
  show i ∈ ((View.whole main_v3).slice (win0_3.rect t)).set ↔ _
  rw [View.set_slice_whole, Rect.mem_set_unit]
  exact Iff.rfl

/-- Every index of the result is written back by some point: row r by point r / 16. -/
theorem covered (i : S4096x1000.Idx) :
    ∃ t : Fin cfg0.N, (cfg0.win 3).flush t = true ∧ i ∈ ((cfg0.win 3).blk t).view.set := by
  have hi0 : (i 0).val < 4096 := (i 0).isLt
  have hi1 : (i 1).val < 1000 := (i 1).isLt
  have hlt : (i 0).val / 16 < cfg0.N := Nat.lt_of_lt_of_eq (by omega : (i 0).val / 16 < 256) N_0.symm
  obtain ⟨-, -, -, -, -, -, -, e7, e8⟩ := block_indices ⟨(i 0).val / 16, hlt⟩
  refine ⟨⟨(i 0).val / 16, hlt⟩, flush0_3 _, ?_⟩
  rw [mem_blk]
  intro a
  match a with
  | ⟨0, _⟩ =>
    show win0_3.index ⟨(i 0).val / 16, hlt⟩ (0 : Fin 2) * 16 ≤ (i 0).val
      ∧ (i 0).val < win0_3.index ⟨(i 0).val / 16, hlt⟩ (0 : Fin 2) * 16 + 16
    rw [e7]
    show (i 0).val / 16 * 16 ≤ (i 0).val ∧ (i 0).val < (i 0).val / 16 * 16 + 16
    omega
  | ⟨1, _⟩ =>
    show win0_3.index ⟨(i 0).val / 16, hlt⟩ (1 : Fin 2) * 1000 ≤ (i 1).val
      ∧ (i 1).val < win0_3.index ⟨(i 0).val / 16, hlt⟩ (1 : Fin 2) * 1000 + 1000
    rw [e8]
    omega

/-- The result array after the run is the specification's result of the argument arrays. -/
theorem final (c : Dev nD) :
    (dats m 0 c).arrAt 3 cfg0.N = logits (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v3) = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result, read index by index.

  The reference adds the sixteen steps of every row on the host (starting from the constant zero), divides by the
  constant sixteen, contracts the feature axis of the pooled array with the feature axis of the weights, and adds the
  bias broadcast over the rows.  Read at (b, q) through the generated one-operation-at-a-time lemmas this is the
  specification's entry: the only work is to name the operand indices by coordinates and to drop the leading zero
  of the host sum.
-/
import proofs.«102949_j32323923870270_2_alg».proof.Proof.Gen.ReferenceIdeal.Read
import proofs.«102949_j32323923870270_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.MeanLinear

/-- The host's quotient at (b, k) is the pooled feature: the host sum starts from the zero word, which is the real
    zero, and the divisor is the broadcast constant sixteen. -/
theorem pooled_eq (x0 : (⟨S4096x2048x16, .f32⟩ : BufTy).Contents (Elt Ideal)) (b : Fin 4096) (k : Fin 2048)
    (j : S4096x2048.Idx) (hj : j = ix2 b k) : val_main_v2 (F := Ideal) x0 j = rowMean x0 b k := by
  subst hj
  rw [val_main_v2_apply, val_main_v0_apply, val_main_v1_apply, val_main_cst_0_apply, val_main_cst_apply]
  simp only [Ideal.hostDivf_def, Ideal.ofBits_def, Ideal.ofBits_zero_f32, zero_add]
  unfold rowMean
  refine congrArg (Ideal.div · _) (Finset.sum_congr rfl fun t _ => congrArg x0 ?_)
  funext a
  apply Fin.ext
  match a with
  | ⟨0, _⟩ => rfl
  | ⟨1, _⟩ => rfl
  | ⟨2, _⟩ => rfl

/-- The reference's result array is the specification's. -/
theorem result_eq (x0 : (⟨S4096x2048x16, .f32⟩ : BufTy).Contents (Elt Ideal)) (x1 : (⟨S1000x2048, .f32⟩ : BufTy).Contents (Elt Ideal))
    (x2 : (⟨S1000, .f32⟩ : BufTy).Contents (Elt Ideal)) :
    val_main_v6 (F := Ideal) x0 x1 x2 = logits x0 x1 x2 := by
  funext i
  obtain ⟨b, q, rfl⟩ : ∃ (b : Fin 4096) (q : Fin 1000), i = ix2 b q := ⟨i 0, i 1, eq_ix2 i⟩
  rw [val_main_v6_apply, val_main_v3_apply, val_main_v5_apply, val_main_v4_apply, logits_ix2]
  unfold entry
  simp only [Ideal.addf_def]
  refine congrArg₂ (· + ·) (Finset.sum_congr rfl fun k _ => ?_) (congrArg x2 ?_)
  · rw [pooled_eq x0 b k _ (funext fun a => Fin.ext (by match a with | ⟨0, _⟩ => rfl | ⟨1, _⟩ => rfl))]
    refine congrArg (_ * x1 ·) (funext fun a => Fin.ext ?_)
    match a with
    | ⟨0, _⟩ => rfl
    | ⟨1, _⟩ => rfl
  · funext a
    apply Fin.ext
    match a with
    | ⟨0, _⟩ => rfl

end Cert.ReferenceIdeal.RefValue

end
-- ==== Proof.lean ====
/-
  The kernel computes, for every row b of x and every class q,

      out (b, q) = (sum over k of mean_t x (b, k, t) · W (q, k)) + bias q,

  the mean being the sum of the sixteen steps divided by sixteen, and so does the reference; on the extended reals the
  two are literally the same expression once the indices are matched, so the precondition is never opened.

  * The specification (Proof/Spec.lean) states the expression once, for a block of rows with transposed weights and a
    bias row (what the kernel's body sees) and for the whole arrays (what the reference sees), and proves the first an
    instance of the second when the block's rows are rows of the array.
  * Proof/BodyValue.lean reads the body's stored value at an entry: the lane sum is a sum over the step coordinate, the
    matrix product into zero a sum over the feature coordinate, narrowing to bf16 is the identity.
  * Proof/Staged.lean reads the two arrays the host prepares before the launch: the transposed weights and the bias row.
  * Proof/KernelValue.lean puts the 256 written-back blocks together: block t holds rows 16 t … 16 t + 15, the blocks
    tile the result, so the result array after the run is the specification's.
  * Proof/RefValue.lean reads the reference's host operations at an entry and finds the same specification.

  The three frames are the generated runs; nothing was rewritten when the kernel was idealized, so that conjunct is
  trivial; the algebraic conjunct sets the two runs side by side at the specification's result.
-/
import proofs.«102949_j32323923870270_2_alg».proof.Defs
import proofs.«102949_j32323923870270_2_alg».proof.Proof.Gen.Kernel
import proofs.«102949_j32323923870270_2_alg».proof.Proof.Gen.Kernel.Skeleton
import proofs.«102949_j32323923870270_2_alg».proof.Proof.Gen.Kernel.Launch
import proofs.«102949_j32323923870270_2_alg».proof.Proof.Gen.Kernel.Points
import proofs.«102949_j32323923870270_2_alg».proof.Proof.Gen.Kernel.Frame
import proofs.«102949_j32323923870270_2_alg».proof.Proof.Gen.KernelIdeal
import proofs.«102949_j32323923870270_2_alg».proof.Proof.Gen.KernelIdeal.Skeleton
import proofs.«102949_j32323923870270_2_alg».proof.Proof.Gen.KernelIdeal.Launch
import proofs.«102949_j32323923870270_2_alg».proof.Proof.Gen.KernelIdeal.Points
import proofs.«102949_j32323923870270_2_alg».proof.Proof.Gen.KernelIdeal.Frame
import proofs.«102949_j32323923870270_2_alg».proof.Proof.Gen.ReferenceIdeal
import proofs.«102949_j32323923870270_2_alg».proof.Proof.Gen.Pre_finite_inputs
import proofs.«102949_j32323923870270_2_alg».proof.Proof.Gen.KernelIdeal.Value
import proofs.«102949_j32323923870270_2_alg».proof.Proof.Gen.ReferenceIdeal.Run
import proofs.«102949_j32323923870270_2_alg».proof.Proof.Gen.ReferenceIdeal.Read
import proofs.«102949_j32323923870270_2_alg».proof.Proof.KernelValue
import proofs.«102949_j32323923870270_2_alg».proof.Proof.RefValue
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, W and the bias, the kernel's result array and the reference's both end at the
    specification's result of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
